-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S96x256 : Shape := ⟨2, ![96, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  main_v38

def fn_part1 {F : FTy → Type} [FloatOps F] (main_arg5 : FVec F S96x256 .f32) (main_arg6 : FVec F S256x128 .f32) (main_arg7 : FVec F S128 .f32) (main_arg8 : FVec F S256x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S96x256 .f32 := Host.absf main_arg5
  let main_cst_6 : FVec F S_ .f32 := constant S_ .f32 0x7F800000#32
  let main_v20 : FVec F S96x256 .f32 := broadcastInDim S96x256 ![] bcast_S_S96x256 main_cst_6
  let main_v21 : IVec S96x256 1 := cmpf .olt main_v19 main_v20
  let main_c_7 : IVec S_ 1 := constantI S_ 1 1#1
  let main_v22 : IVec S_ 1 := (fun x v => Host.reduce IntOp.andi x v reducesTo_S96x256_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S800000 .f32) (main_arg3 : FVec F S96x256 .f32) (main_arg4 : FVec F S256 .f32) (main_arg5 : FVec F S96x256 .f32) (main_arg6 : FVec F S256x128 .f32) (main_arg7 : FVec F S128 .f32) (main_arg8 : FVec F S256x128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x256 .f32 := Host.absf main_arg3
  let main_cst_2 : FVec F S_ .f32 := constant S_ .f32 0x7F800000#32
  let main_v10 : FVec F S96x256 .f32 := broadcastInDim S96x256 ![] bcast_S_S96x256 main_cst_2
  let main_v11 : IVec S96x256 1 := cmpf .olt main_v9 main_v10
  let main_c_3 : IVec S_ 1 := constantI S_ 1 1#1
  let main_v12 : IVec S_ 1 := (fun x v => Host.reduce IntOp.andi x v reducesTo_S96x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S96x256 : Shape := ⟨2, ![96, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x256 : Shape := ⟨2, ![50000, 256]⟩
abbrev S5000x96 : Shape := ⟨2, ![5000, 96]⟩
abbrev S5000x256 : Shape := ⟨2, ![5000, 256]⟩
abbrev S1x256 : Shape := ⟨2, ![1, 256]⟩
abbrev S800000x256 : Shape := ⟨2, ![800000, 256]⟩
abbrev S50000x128 : Shape := ⟨2, ![50000, 128]⟩
abbrev S2000x256 : Shape := ⟨2, ![2000, 256]⟩
abbrev S2000x128 : Shape := ⟨2, ![2000, 128]⟩
abbrev S1x128 : Shape := ⟨2, ![1, 128]⟩

abbrev nBuf : Space → Nat
  | .hbm => 47
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S96x256, .f32⟩
  | .hbm, ⟨4, _⟩ => ⟨S256, .f32⟩
  | .hbm, ⟨5, _⟩ => ⟨S96x256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S800000x1, .f32⟩
  | .hbm, ⟨23, _⟩ => ⟨S800000x96, .f32⟩
  | .hbm, ⟨24, _⟩ => ⟨S800000x96, .f32⟩
  | .hbm, ⟨25, _⟩ => ⟨S_, .f32⟩
  | .hbm, ⟨26, _⟩ => ⟨S50000x96, .f32⟩
  | .hbm, ⟨27, _⟩ => ⟨S800000x1, .i32⟩
  | .hbm, ⟨28, _⟩ => ⟨S50000x96, .f32⟩
  | .hbm, ⟨29, _⟩ => ⟨S50000x256, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x256, .f32⟩
  | .hbm, ⟨39, _⟩ => ⟨S800000x1, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S50000x128, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x256, .f32⟩
  | .local _ .vmem, ⟨5, _⟩ => ⟨S96x256, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x256_S96x256_0_0 : ∀ a, (![0, 0] : Fin 2 → Nat) a + S96x256.size a ≤ S96x256.size a
  h_S96x256 : 0 < S96x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x256_S5000x256_1_0_0_1_n_n_wf : DotDims.WF S5000x96 S96x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x256.size a ≤ S96x256.size a
  hwx0_2 : ∀ i : grid0.Coords, EltTy.bits .f32 = 32 ∨ (Rect.block (s := S96x256) S96x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x256.size a ≤ S96x256.size a
  hwx0_3 : ∀ i : grid0.Coords, EltTy.bits .f32 = 32 ∨ (Rect.block (s := S96x256) S96x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x256_S5000x256_1_0_0_1_n_n : DotDims S5000x96 S96x256 S5000x256 where
  lhsContracting := [1]
  rhsContracting := [0]
  lhsNonContracting := [0]
  rhsNonContracting := [1]
  lhsBatch := []
  rhsBatch := []
  wf := dot_S5000x96_S96x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v16) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S96x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S96x256 : Shape := ⟨2, ![96, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .f32⟩
  | .hbm, ⟨3, _⟩ => ⟨S96x256, .f32⟩
  | .hbm, ⟨4, _⟩ => ⟨S256, .f32⟩
  | .hbm, ⟨5, _⟩ => ⟨S96x256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S800000x1, .f32⟩
  | .hbm, ⟨23, _⟩ => ⟨S800000x96, .f32⟩
  | .hbm, ⟨24, _⟩ => ⟨S800000x96, .f32⟩
  | .hbm, ⟨25, _⟩ => ⟨S_, .f32⟩
  | .hbm, ⟨26, _⟩ => ⟨S50000x96, .f32⟩
  | .hbm, ⟨27, _⟩ => ⟨S800000x1, .i32⟩
  | .hbm, ⟨28, _⟩ => ⟨S50000x96, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S800000x1, .f32⟩
  | .hbm, ⟨48, _⟩ => ⟨S800000x256, .f32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x256_S50000x256_1_0_0_1_n_n_wf : DotDims.WF S50000x96 S96x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RunValue.lean ====
/-
  The kernel program's run, with what every buffer holds at the end.

  The program is four stretches in order: host operations (the first aggregation), the first layer's kernel region,
  host operations (the second aggregation), the second layer's kernel region. Each stretch takes the TensorCore's
  buffers from one valuation to the next: a host stretch to the operations' fold over the valuation it starts from, a
  region to the same valuation with its output array replaced by what its write-backs leave. The last valuation, `W4`,
  is therefore what every weakly fair execution ends in: each unscoped buffer at `W4`. Read at the result buffer, it is
  the second region's output array; read at an argument, it walks back through the four stretches — none writes an
  argument — to the launch contents.
-/
import proofs.«180475_j489626271957_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    valuation of the four stretches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the buffers the claim speaks of: the RESULT buffer ends at the second region's output array
    after its last point, and the nine arguments end as launched. -/
theorem run_result : θ_run defs (onTc (τ := τ) (main (F := F))) ⟨m, fun _ => 0, ρ⟩ (fun r => ∀ c : Dev nD,
      r.2.mem ((c.tc : Thread nD τ).loc main_v31) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v31 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (run_all m ρ)

end Cert.KernelIdeal.RunValue

end
-- ==== Proof.Entry.lean ====
/-
  What the two kernel regions are entered with.

  Before each region the host computes the layer's aggregated array from a feature array: along each of the 800000
  edges it takes the row of the edge's source node (a negative source counted from the end), scales it by the edge's
  weight, and sums the rows into the edges' target nodes, starting from zero. The first region is entered with the
  aggregation of the input features, the input features, and the first layer's weights and bias as launched. The second
  is entered with the aggregation of the FIRST REGION'S OUTPUT ARRAY — over the same sources, targets and edge weights —,
  that output array itself, and the second layer's weights and bias as launched.
-/
import proofs.«180475_j489626271957_2_alg».proof.Proof.Gen.KernelIdeal.Frame
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]

/-- The edges' source nodes: row 0 of the edge array. -/
def sources (ei : IVec S2x800000 32) : IVec S800000 32 :=
  shapeCast S800000 (extractStridedSlice S1x800000 ![0, 0] ei slices_S2x800000_S1x800000_0_0) shapeCasts_S1x800000_S800000

/-- The edges' target nodes: row 1 of the edge array. -/
def targets (ei : IVec S2x800000 32) : IVec S800000 32 :=
  shapeCast S800000 (extractStridedSlice S1x800000 ![1, 0] ei slices_S2x800000_S1x800000_1_0) shapeCasts_S1x800000_S800000

/-- A node index with a negative one counted from the end: 50000 added where it is below zero. -/
def wrapped (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The aggregated array of a feature array of width 96: each edge takes its source node's row, scaled by the edge's
    weight, and the rows are summed into the edges' target nodes, from zero. -/
def aggregate1 (feat : FVec F S50000x96 .f32) (src dst : IVec S800000 32) (ew : FVec F S800000 .f32) : FVec F S50000x96 .f32 :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 dst)
    (mulf (Host.gather gather_S50000x96_S800000x1_S800000x96_1_0_n_n_0_1_196 feat (broadcastInDim S800000x1 ![0] bcast_S800000_S800000x1_0 (wrapped src)))
      (broadcastInDim S800000x96 ![0, 1] bcast_S800000x1_S800000x96_0_1 (broadcastInDim S800000x1 ![0] bcast_S800000_S800000x1_0 ew)))

/-- The aggregated array of a feature array of width 256: each edge takes its source node's row, scaled by the edge's
    weight, and the rows are summed into the edges' target nodes, from zero. -/
def aggregate2 (feat : FVec F S50000x256 .f32) (src dst : IVec S800000 32) (ew : FVec F S800000 .f32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst)
    (mulf (Host.gather gather_S50000x256_S800000x1_S800000x256_1_0_n_n_0_1_1256 feat (broadcastInDim S800000x1 ![0] bcast_S800000_S800000x1_0 (wrapped src)))
      (broadcastInDim S800000x256 ![0, 1] bcast_S800000x1_S800000x256_0_1 (broadcastInDim S800000x1 ![0] bcast_S800000_S800000x1_0 ew)))

variable (m : (ℓ : Loc nD τ sig) → Buf (Elt F) ℓ) (ρ : Dev nD → PrngReg)

/-! ## The first region's arrays -/

set_option maxHeartbeats 2000000 in
set_option maxRecDepth 8192 in
/-- The first region's aggregated array is the aggregation of the input features as launched. -/
theorem V1_agg (c : Dev nD) : V1 m ρ c main_v16
    = aggregate1 (F := F) (m ((c.tc : Thread nD τ).loc main_arg0)) (sources (m ((c.tc : Thread nD τ).loc main_arg1))) (targets (m ((c.tc : Thread nD τ).loc main_arg1))) (m ((c.tc : Thread nD τ).loc main_arg2)) := by
  show StableHlo.after hostOps0 (W0 m ρ c) (Proc.devRef .tc main_v16) = _
  after_results_simp <;> rfl

set_option maxHeartbeats 2000000 in
set_option maxRecDepth 8192 in
theorem V1_main_arg0 (c : Dev nD) : V1 m ρ c main_arg0 = (m ((c.tc : Thread nD τ).loc main_arg0)) := by
  show StableHlo.after hostOps0 (W0 m ρ c) (Proc.devRef .tc main_arg0) = _
  after_results_simp <;> rfl
set_option maxHeartbeats 2000000 in
set_option maxRecDepth 8192 in
theorem V1_main_arg3 (c : Dev nD) : V1 m ρ c main_arg3 = (m ((c.tc : Thread nD τ).loc main_arg3)) := by
  show StableHlo.after hostOps0 (W0 m ρ c) (Proc.devRef .tc main_arg3) = _
  after_results_simp <;> rfl
set_option maxHeartbeats 2000000 in
set_option maxRecDepth 8192 in
theorem V1_main_arg5 (c : Dev nD) : V1 m ρ c main_arg5 = (m ((c.tc : Thread nD τ).loc main_arg5)) := by
  show StableHlo.after hostOps0 (W0 m ρ c) (Proc.devRef .tc main_arg5) = _
  after_results_simp <;> rfl
set_option maxHeartbeats 2000000 in
set_option maxRecDepth 8192 in
theorem V1_main_arg4 (c : Dev nD) : V1 m ρ c main_arg4 = (m ((c.tc : Thread nD τ).loc main_arg4)) := by
  show StableHlo.after hostOps0 (W0 m ρ c) (Proc.devRef .tc main_arg4) = _
  after_results_simp <;> rfl

/-! ## What the first stretch leaves for the second to read -/

set_option maxHeartbeats 2000000 in
set_option maxRecDepth 8192 in
theorem W1_sources (c : Dev nD) : W1 m ρ c (Proc.devRef .tc main_v1) = sources (m ((c.tc : Thread nD τ).loc main_arg1)) := by
  show StableHlo.after hostOps0 (W0 m ρ c) (Proc.devRef .tc main_v1) = _
  after_results_simp <;> rfl
set_option maxHeartbeats 2000000 in
set_option maxRecDepth 8192 in
theorem W1_targets (c : Dev nD) : W1 m ρ c (Proc.devRef .tc main_v3) = targets (m ((c.tc : Thread nD τ).loc main_arg1)) := by
  show StableHlo.after hostOps0 (W0 m ρ c) (Proc.devRef .tc main_v3) = _
  after_results_simp <;> rfl
set_option maxHeartbeats 2000000 in
set_option maxRecDepth 8192 in
theorem W1_main_arg2 (c : Dev nD) : W1 m ρ c (Proc.devRef .tc main_arg2) = (m ((c.tc : Thread nD τ).loc main_arg2)) := by
  show StableHlo.after hostOps0 (W0 m ρ c) (Proc.devRef .tc main_arg2) = _
  after_results_simp <;> rfl
set_option maxHeartbeats 2000000 in
set_option maxRecDepth 8192 in
theorem W1_main_arg6 (c : Dev nD) : W1 m ρ c (Proc.devRef .tc main_arg6) = (m ((c.tc : Thread nD τ).loc main_arg6)) := by
  show StableHlo.after hostOps0 (W0 m ρ c) (Proc.devRef .tc main_arg6) = _
  after_results_simp <;> rfl
set_option maxHeartbeats 2000000 in
set_option maxRecDepth 8192 in
theorem W1_main_arg7 (c : Dev nD) : W1 m ρ c (Proc.devRef .tc main_arg7) = (m ((c.tc : Thread nD τ).loc main_arg7)) := by
  show StableHlo.after hostOps0 (W0 m ρ c) (Proc.devRef .tc main_arg7) = _
  after_results_simp <;> rfl
set_option maxHeartbeats 2000000 in
set_option maxRecDepth 8192 in
theorem W1_main_arg8 (c : Dev nD) : W1 m ρ c (Proc.devRef .tc main_arg8) = (m ((c.tc : Thread nD τ).loc main_arg8)) := by
  show StableHlo.after hostOps0 (W0 m ρ c) (Proc.devRef .tc main_arg8) = _
  after_results_simp <;> rfl

/-! ## The second region's arrays -/

set_option maxHeartbeats 2000000 in
set_option maxRecDepth 8192 in
/-- The second region's feature array is the first region's output array after its last point. -/
theorem V3_hidden (c : Dev nD) : V3 m ρ c main_v17 = (dat0 (V1 m ρ) c).arrAt 5 cfg0.N := by
  have e : V3 m ρ c main_v17 = W2 m ρ c (Proc.devRef .tc main_v17) := by
    show StableHlo.after hostOps1 (W2 m ρ c) (Proc.devRef .tc main_v17) = _
    after_results_simp <;> rfl
  rw [e]
  exact W2_arr m ρ c 5

set_option maxHeartbeats 2000000 in
set_option maxRecDepth 8192 in
/-- The second region's aggregated array is the aggregation of the first region's output array, over the same edges. -/
theorem V3_agg (c : Dev nD) : V3 m ρ c main_v30
    = aggregate2 (F := F) ((dat0 (V1 m ρ) c).arrAt 5 cfg0.N) (sources (m ((c.tc : Thread nD τ).loc main_arg1))) (targets (m ((c.tc : Thread nD τ).loc main_arg1))) (m ((c.tc : Thread nD τ).loc main_arg2)) := by
  have e : V3 m ρ c main_v30 = aggregate2 (F := F) (W2 m ρ c (Proc.devRef .tc main_v17)) (W2 m ρ c (Proc.devRef .tc main_v1)) (W2 m ρ c (Proc.devRef .tc main_v3)) (W2 m ρ c (Proc.devRef .tc main_arg2)) := by
    show StableHlo.after hostOps1 (W2 m ρ c) (Proc.devRef .tc main_v30) = _
    after_results_simp <;> rfl
  rw [e, W2_of_ne m ρ c main_v1 (by decide), W2_of_ne m ρ c main_v3 (by decide), W2_of_ne m ρ c main_arg2 (by decide),
    W1_sources, W1_targets, W1_main_arg2]
  exact congrArg (fun h => aggregate2 (F := F) h _ _ _) (W2_arr m ρ c 5)

set_option maxHeartbeats 2000000 in
set_option maxRecDepth 8192 in
theorem V3_main_arg6 (c : Dev nD) : V3 m ρ c main_arg6 = (m ((c.tc : Thread nD τ).loc main_arg6)) := by
  have e : V3 m ρ c main_arg6 = W2 m ρ c (Proc.devRef .tc main_arg6) := by
    show StableHlo.after hostOps1 (W2 m ρ c) (Proc.devRef .tc main_arg6) = _
    after_results_simp <;> rfl
  rw [e, W2_of_ne m ρ c main_arg6 (by decide)]
  exact W1_main_arg6 m ρ c
set_option maxHeartbeats 2000000 in
set_option maxRecDepth 8192 in
theorem V3_main_arg8 (c : Dev nD) : V3 m ρ c main_arg8 = (m ((c.tc : Thread nD τ).loc main_arg8)) := by
  have e : V3 m ρ c main_arg8 = W2 m ρ c (Proc.devRef .tc main_arg8) := by
    show StableHlo.after hostOps1 (W2 m ρ c) (Proc.devRef .tc main_arg8) = _
    after_results_simp <;> rfl
  rw [e, W2_of_ne m ρ c main_arg8 (by decide)]
  exact W1_main_arg8 m ρ c
set_option maxHeartbeats 2000000 in
set_option maxRecDepth 8192 in
theorem V3_main_arg7 (c : Dev nD) : V3 m ρ c main_arg7 = (m ((c.tc : Thread nD τ).loc main_arg7)) := by
  have e : V3 m ρ c main_arg7 = W2 m ρ c (Proc.devRef .tc main_arg7) := by
    show StableHlo.after hostOps1 (W2 m ρ c) (Proc.devRef .tc main_arg7) = _
    after_results_simp <;> rfl
  rw [e, W2_of_ne m ρ c main_arg7 (by decide)]
  exact W1_main_arg7 m ρ c

end Cert.KernelIdeal.Entry

end
-- ==== Proof.LayerSpec.lean ====
/-
  One graph-convolution layer as a function of its five arrays, entry by entry.

  For a node r and an output channel q the layer's entry is
      (Σ_k agg[r,k] · wrel[k,q]  +  Σ_k feat[r,k] · wroot[k,q])  +  b[q],
  the two matrix products added first and the bias last, over the extended reals. The first layer takes the
  maximum of that entry and zero; the second does not. Nothing here depends on how the rows are tiled: an entry
  reads row r of `agg` and `feat` and column q of the two weight matrices only.
-/
import Idealize.ShloMosaic.PureOps.Ideal
import Idealize.ShloMosaic.Lib.ValueIdx

noncomputable section

open Idealize.ShloMosaic Idealize.ShloMosaic.ValueIdx

namespace Cert.GraphConv

/-- The entry at row `r`, column `q`: both products' sums over the inner axis, then the bias of the column. -/
def entry {N K C : Nat} (agg feat : (⟨2, ![N, K]⟩ : Shape).Idx → EReal) (wrel wroot : (⟨2, ![K, C]⟩ : Shape).Idx → EReal)
    (b : (⟨1, ![C]⟩ : Shape).Idx → EReal) (r : Fin N) (q : Fin C) : EReal :=
  ((∑ k : Fin K, agg (ix2 r k) * wrel (ix2 k q)) + ∑ k : Fin K, feat (ix2 r k) * wroot (ix2 k q)) + b (ix1 q)

/-- The layer without activation, as one array. -/
def layer {N K C : Nat} (agg feat : (⟨2, ![N, K]⟩ : Shape).Idx → EReal) (wrel wroot : (⟨2, ![K, C]⟩ : Shape).Idx → EReal)
    (b : (⟨1, ![C]⟩ : Shape).Idx → EReal) : (⟨2, ![N, C]⟩ : Shape).Idx → EReal :=
  fun i => entry agg feat wrel wroot b (i 0) (i 1)

/-- The layer followed by the maximum with `z` (the program's zero, kept as the word it is printed with). -/
def layerMax {N K C : Nat} (z : EReal) (agg feat : (⟨2, ![N, K]⟩ : Shape).Idx → EReal) (wrel wroot : (⟨2, ![K, C]⟩ : Shape).Idx → EReal)
    (b : (⟨1, ![C]⟩ : Shape).Idx → EReal) : (⟨2, ![N, C]⟩ : Shape).Idx → EReal :=
  fun i => max (entry agg feat wrel wroot b (i 0) (i 1)) z

/-- An entry only reads row `r` of the two row arrays: two pairs of arrays that agree on the rows named give the
    same entry. This is what lets a block of rows stand for the whole array. -/
theorem entry_congr {N N' K C : Nat} (agg feat : (⟨2, ![N, K]⟩ : Shape).Idx → EReal) (agg' feat' : (⟨2, ![N', K]⟩ : Shape).Idx → EReal)
    (wrel wroot : (⟨2, ![K, C]⟩ : Shape).Idx → EReal) (b : (⟨1, ![C]⟩ : Shape).Idx → EReal) (r : Fin N) (r' : Fin N') (q : Fin C)
    (ha : ∀ k : Fin K, agg (ix2 r k) = agg' (ix2 r' k)) (hf : ∀ k : Fin K, feat (ix2 r k) = feat' (ix2 r' k)) :
    entry agg feat wrel wroot b r q = entry agg' feat' wrel wroot b r' q := by
  unfold entry
  simp only [ha, hf]

end Cert.GraphConv

end
-- ==== Proof.Body0.lean ====
/-
  The body of the first layer's kernel, read at one entry of its block of 5000 rows.

  The body multiplies its block of aggregated rows by the relation weights and its block of feature rows by the
  root weights, each product accumulated from zero, adds the two products, then the bias row broadcast down the
  block, and takes the maximum with zero. The roundings to bf16 on the way into the products are the identity on the extended
  reals, and a product accumulated from zero is the plain sum over the inner axis. So the entry of the stored block
  at (p, q) is the layer's entry at row p of the two row blocks and column q.
-/
import proofs.«180475_j489626271957_2_alg».proof.Proof.Gen.KernelIdeal.Skeleton
import proofs.«180475_j489626271957_2_alg».proof.Proof.LayerSpec
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Body0

open Cert.KernelIdeal Cert.KernelIdeal.Gen

/-- The left operand's row coordinate is the output's: axis 0 is not contracted. -/
theorem lhs_row (i : S5000x256.Idx) (s : dot_S5000x96_S96x256_S5000x256_1_0_0_1_n_n.contr.Idx) : (dot_S5000x96_S96x256_S5000x256_1_0_0_1_n_n.lhsIdx i s 0).val = (i 0).val := by
  unfold DotDims.lhsIdx
  rw [dif_neg (show ¬(0 : Fin S5000x96.rank) ∈ dot_S5000x96_S96x256_S5000x256_1_0_0_1_n_n.lhsBatch by decide), dif_pos (show (0 : Fin S5000x96.rank) ∈ dot_S5000x96_S96x256_S5000x256_1_0_0_1_n_n.lhsNonContracting by decide)]
  rfl

/-- The right operand's column coordinate is the output's: axis 1 is not contracted. -/
theorem rhs_col (i : S5000x256.Idx) (s : dot_S5000x96_S96x256_S5000x256_1_0_0_1_n_n.contr.Idx) : (dot_S5000x96_S96x256_S5000x256_1_0_0_1_n_n.rhsIdx i s 1).val = (i 1).val := by
  unfold DotDims.rhsIdx
  rw [dif_neg (show ¬(1 : Fin S96x256.rank) ∈ dot_S5000x96_S96x256_S5000x256_1_0_0_1_n_n.rhsBatch by decide), dif_pos (show (1 : Fin S96x256.rank) ∈ dot_S5000x96_S96x256_S5000x256_1_0_0_1_n_n.rhsNonContracting by decide)]
  rfl

/-- The entry of the left operand that the product's entry (p, q) meets at inner position k: (p, k). -/
theorem lhs_at (p : Fin 5000) (q : Fin 256) (k : Fin 96) :
    dot_S5000x96_S96x256_S5000x256_1_0_0_1_n_n.lhsIdx (ix2 p q) ((contrEquiv1 dot_S5000x96_S96x256_S5000x256_1_0_0_1_n_n 96 rfl rfl).symm k) = ix2 p k := funext fun a => Fin.ext (by
  have hk := contrEquiv1_symm_val dot_S5000x96_S96x256_S5000x256_1_0_0_1_n_n 96 rfl rfl k
  match a with
  | ⟨0, _⟩ => exact lhs_row _ _
  | ⟨1, _⟩ => exact (dot_S5000x96_S96x256_S5000x256_1_0_0_1_n_n.lhsIdx_val_of_single rfl _ _).trans hk)

/-- The entry of the right operand it meets there: (k, q). -/
theorem rhs_at (p : Fin 5000) (q : Fin 256) (k : Fin 96) :
    dot_S5000x96_S96x256_S5000x256_1_0_0_1_n_n.rhsIdx (ix2 p q) ((contrEquiv1 dot_S5000x96_S96x256_S5000x256_1_0_0_1_n_n 96 rfl rfl).symm k) = ix2 k q := funext fun a => Fin.ext (by
  have hk := contrEquiv1_symm_val dot_S5000x96_S96x256_S5000x256_1_0_0_1_n_n 96 rfl rfl k
  match a with
  | ⟨0, _⟩ => exact (dot_S5000x96_S96x256_S5000x256_1_0_0_1_n_n.rhsIdx_val_of_single rfl _ _).trans hk
  | ⟨1, _⟩ => exact rhs_col _ _)

/-- A block of rows times a weight matrix, accumulated from zero, at (p, q): the sum over the inner axis of
    row p of the block against column q of the weights. -/
theorem product_at (L : FVec Ideal S5000x96 .bf16) (W : FVec Ideal S96x256 .bf16) (p : Fin 5000) (q : Fin 256) :
    matmul dot_S5000x96_S96x256_S5000x256_1_0_0_1_n_n none L W (constant S5000x256 .f32 0x00000000#32) (ix2 p q)
      = ∑ k : Fin 96, L (ix2 p k) * W (ix2 k q) := by
  simp only [matmul]
  rw [Ideal.matmul_constant_zero_apply, ← Equiv.sum_comp (contrEquiv1 dot_S5000x96_S96x256_S5000x256_1_0_0_1_n_n 96 rfl rfl).symm]
  refine Finset.sum_congr rfl fun k _ => ?_
  rw [lhs_at p q k, rhs_at p q k]

/-- The bias vector, given a leading unit axis and broadcast down the block's rows, at (p, q): the bias of column q. -/
theorem bias_at (b : Vec Ideal S256 .f32) (p : Fin 5000) (q : Fin 256) :
    broadcastTo S5000x256 (shapeCast S1x256 b shapeCasts_S256_S1x256) broadcasts_S1x256_S5000x256 (ix2 p q) = b (ix1 q) :=
  (broadcastTo_1b_ab_apply _ _ p q).trans (shapeCast_a_1a_apply b _ 0 q)

/-- THE STORED BLOCK at (p, q) is the layer's entry at row p of the two row blocks and column q, against the zero word. -/
theorem payload_at (x0 x1 : Vec Ideal S5000x96 .f32) (x2 x3 : Vec Ideal S96x256 .f32) (x4 : Vec Ideal S256 .f32) (p : Fin 5000) (q : Fin 256) :
    k0_pay1 (F := Ideal) x0 x1 x2 x3 x4 (ix2 p q)
      = max (Cert.GraphConv.entry x0 x1 x2 x3 x4 p q) (Ideal.ofBits .f32 0x00000000#32) := by
  unfold k0_pay1 Cert.GraphConv.entry
  simp only [maximumf_apply, addf_apply, broadcast_apply, shapeCast_self]
  rw [product_at, product_at, bias_at]
  rfl

/-- The same against WHOLE arrays of 50000 rows: when rows p of the two row blocks are rows r of the arrays, and the
    weight and bias blocks are the arrays themselves, the stored block at (p, q) is the layer at (r, q). -/
theorem block_at (A X : S50000x96.Idx → EReal) (WR WT : S96x256.Idx → EReal) (B : S256.Idx → EReal)
    (x0 x1 : Vec Ideal S5000x96 .f32) (x2 x3 : Vec Ideal S96x256 .f32) (x4 : Vec Ideal S256 .f32)
    (p : Fin 5000) (q : Fin 256) (r : Fin 50000)
    (h0 : ∀ k : Fin 96, x0 (ix2 p k) = A (ix2 r k)) (h1 : ∀ k : Fin 96, x1 (ix2 p k) = X (ix2 r k))
    (h2 : x2 = WR) (h3 : x3 = WT) (h4 : x4 = B) :
    k0_pay1 (F := Ideal) x0 x1 x2 x3 x4 (ix2 p q)
      = Cert.GraphConv.layerMax (Ideal.ofBits .f32 0x00000000#32) A X WR WT B (ix2 r q) := by
  subst h2 h3 h4
  rw [payload_at]
  show max (Cert.GraphConv.entry x0 x1 x2 x3 x4 p q) _ = max (Cert.GraphConv.entry A X x2 x3 x4 r q) _
  rw [Cert.GraphConv.entry_congr x0 x1 A X x2 x3 x4 p r q h0 h1]

end Cert.KernelIdeal.Body0

end
-- ==== Proof.Region0.lean ====
/-
  The first layer's kernel region as one function of the arrays it is entered with.

  The grid has 10 points; point t stages rows 5000·t … 5000·t + 4999 of the aggregated array and of the feature array,
  the two weight matrices and the bias whole, and writes back rows 5000·t … 5000·t + 4999 of the result. An entry of the layer
  reads one row of the two row arrays, so the block a point writes back is the block of ONE function of the whole
  arrays — the layer followed by the maximum with zero — and since the 10 blocks of 5000 rows tile the 50000 rows, the result array ends
  holding that function. Stated for any contents `V` the region may be entered with.
-/
import proofs.«180475_j489626271957_2_alg».proof.Proof.Gen.KernelIdeal.Frame
import proofs.«180475_j489626271957_2_alg».proof.Proof.Body0
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The layer's result as a function of the five arrays the region finds: aggregated rows, feature rows, relation
    weights, root weights, bias. -/
def result (c : Dev nD) : S50000x256.Idx → EReal :=
  Cert.GraphConv.layerMax (Ideal.ofBits .f32 0x00000000#32) (V c main_v16) (V c main_arg0) (V c main_arg3) (V c main_arg5) (V c main_arg4)

/-- Where each window's block sits at point t: the two row windows and the result window at row block t, the weights
    and the bias at their one block. Decided over the 10 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT t WRITES BACK is block t of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero2]
  simp only [View.ld_unit_zero (S := S5000x96) zero2, View.ld_unit_zero (S := S96x256) zero2, View.ld_unit_zero (S := S256) zero1]
  obtain ⟨e00, e01, e10, e11, e20, e21, e30, e31, e40, e50, e51⟩ := block_index t
  have hN : t.val < 10 := by have h := t.isLt; have e : cfg0.N = 10 := N_0; omega
  funext y
  obtain ⟨p, q, rfl⟩ : ∃ (p : Fin 5000) (q : Fin 256), y = ix2 p q := ⟨y 0, y 1, eq_ix2 y⟩
  have hp : p.val < 5000 := p.isLt
  have hq : q.val < 256 := q.isLt
  have hr : t.val * 5000 + p.val < 50000 := by omega
  show k0_pay1 (iblk0 V c 0 t) (iblk0 V c 1 t) (iblk0 V c 2 t) (iblk0 V c 3 t) (iblk0 V c 4 t) (ix2 p q)
    = result V c (((cfg0.win 5).blk t).view.emb (ix2 p q))
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 256 + 1 * q.val = q.val; omega
  rw [hemb]
  unfold result
  refine Body0.block_at (V c main_v16) (V c main_arg0) (V c main_arg3) (V c main_arg5) (V c main_arg4)
    (iblk0 V c 0 t) (iblk0 V c 1 t) (iblk0 V c 2 t) (iblk0 V c 3 t) (iblk0 V c 4 t) p q ⟨t.val * 5000 + p.val, hr⟩ ?_ ?_ ?_ ?_ ?_
  · intro k
    have hk : k.val < 96 := k.isLt
    show V c main_v16 (((cfg0.win 0).blk t).view.emb (ix2 p k)) = V c main_v16 (ix2 (⟨t.val * 5000 + p.val, hr⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 96 + 1 * k.val = k.val; omega
  · intro k
    have hk : k.val < 96 := k.isLt
    show V c main_arg0 (((cfg0.win 1).blk t).view.emb (ix2 p k)) = V c main_arg0 (ix2 (⟨t.val * 5000 + p.val, hr⟩ : Fin 50000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 96 + 1 * k.val = k.val; omega
  · funext z
    show V c main_arg3 (((cfg0.win 2).blk t).view.emb z) = V c main_arg3 z
    refine congrArg _ (funext fun a => Fin.ext ?_)
    match a with
    | ⟨0, _⟩ => show win0_2.index t (0 : Fin 2) * 96 + 1 * (z 0).val = (z 0).val; omega
    | ⟨1, _⟩ => show win0_2.index t (1 : Fin 2) * 256 + 1 * (z 1).val = (z 1).val; omega
  · funext z
    show V c main_arg5 (((cfg0.win 3).blk t).view.emb z) = V c main_arg5 z
    refine congrArg _ (funext fun a => Fin.ext ?_)
    match a with
    | ⟨0, _⟩ => show win0_3.index t (0 : Fin 2) * 96 + 1 * (z 0).val = (z 0).val; omega
    | ⟨1, _⟩ => show win0_3.index t (1 : Fin 2) * 256 + 1 * (z 1).val = (z 1).val; omega
  · funext z
    show V c main_arg4 (((cfg0.win 4).blk t).view.emb z) = V c main_arg4 z
    refine congrArg _ (funext fun a => Fin.ext ?_)
    match a with
    | ⟨0, _⟩ => show win0_4.index t (0 : Fin 1) * 256 + 1 * (z 0).val = (z 0).val; omega

/-- An index of the result array is in point t's block iff each coordinate is in the block's range on its axis. -/
theorem mem_block (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v17).slice (win0_5.rect t)).set ↔ _
  rw [View.set_slice_whole, Rect.mem_set_unit]
  exact Iff.rfl

/-- Every index of the result array is in the block of the point that owns its row: row r belongs to point r / 5000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 5000 < cfg0.N := by rw [show cfg0.N = 10 from N_0]; omega
  obtain ⟨-, -, -, -, -, -, -, -, -, e50, e51⟩ := block_index ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val ∧ (i 1).val < win0_5.index ⟨(i 0).val / 5000, ht⟩ (1 : Fin 2) * 256 + 256
    rw [e51]; omega

/-- THE RESULT ARRAY after the region is `result` of the arrays the region was entered with. -/
theorem final (c : Dev nD) : (dat0 V c).arrAt 5 cfg0.N = result V c :=
  (dat0 V c).arrAt_eq_of_cover 5 (result V c) (fun t _ => flushed_eq V c t) covered

end Cert.KernelIdeal.Region0

end
-- ==== Proof.Body1.lean ====
/-
  The body of the second layer's kernel, read at one entry of its block of 2000 rows.

  The body multiplies its block of aggregated rows by the relation weights and its block of feature rows by the
  root weights, each product accumulated from zero, adds the two products, then the bias row broadcast down the
  block. The roundings to bf16 on the way into the products are the identity on the extended
  reals, and a product accumulated from zero is the plain sum over the inner axis. So the entry of the stored block
  at (p, q) is the layer's entry at row p of the two row blocks and column q.
-/
import proofs.«180475_j489626271957_2_alg».proof.Proof.Gen.KernelIdeal.Skeleton
import proofs.«180475_j489626271957_2_alg».proof.Proof.LayerSpec
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Body1

open Cert.KernelIdeal Cert.KernelIdeal.Gen

/-- The left operand's row coordinate is the output's: axis 0 is not contracted. -/
theorem lhs_row (i : S2000x128.Idx) (s : dot_S2000x256_S256x128_S2000x128_1_0_0_1_n_n.contr.Idx) : (dot_S2000x256_S256x128_S2000x128_1_0_0_1_n_n.lhsIdx i s 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

/-- The right operand's column coordinate is the output's: axis 1 is not contracted. -/
theorem rhs_col (i : S2000x128.Idx) (s : dot_S2000x256_S256x128_S2000x128_1_0_0_1_n_n.contr.Idx) : (dot_S2000x256_S256x128_S2000x128_1_0_0_1_n_n.rhsIdx i s 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The entry of the left operand that the product's entry (p, q) meets at inner position k: (p, k). -/
theorem lhs_at (p : Fin 2000) (q : Fin 128) (k : Fin 256) :
    dot_S2000x256_S256x128_S2000x128_1_0_0_1_n_n.lhsIdx (ix2 p q) ((contrEquiv1 dot_S2000x256_S256x128_S2000x128_1_0_0_1_n_n 256 rfl rfl).symm k) = ix2 p k := funext fun a => Fin.ext (by
  have hk := contrEquiv1_symm_val dot_S2000x256_S256x128_S2000x128_1_0_0_1_n_n 256 rfl rfl k
  match a with
  | ⟨0, _⟩ => exact lhs_row _ _
  | ⟨1, _⟩ => exact (dot_S2000x256_S256x128_S2000x128_1_0_0_1_n_n.lhsIdx_val_of_single rfl _ _).trans hk)

/-- The entry of the right operand it meets there: (k, q). -/
theorem rhs_at (p : Fin 2000) (q : Fin 128) (k : Fin 256) :
    dot_S2000x256_S256x128_S2000x128_1_0_0_1_n_n.rhsIdx (ix2 p q) ((contrEquiv1 dot_S2000x256_S256x128_S2000x128_1_0_0_1_n_n 256 rfl rfl).symm k) = ix2 k q := funext fun a => Fin.ext (by
  have hk := contrEquiv1_symm_val dot_S2000x256_S256x128_S2000x128_1_0_0_1_n_n 256 rfl rfl k
  match a with
  | ⟨0, _⟩ => exact (dot_S2000x256_S256x128_S2000x128_1_0_0_1_n_n.rhsIdx_val_of_single rfl _ _).trans hk
  | ⟨1, _⟩ => exact rhs_col _ _)

/-- A block of rows times a weight matrix, accumulated from zero, at (p, q): the sum over the inner axis of
    row p of the block against column q of the weights. -/
theorem product_at (L : FVec Ideal S2000x256 .bf16) (W : FVec Ideal S256x128 .bf16) (p : Fin 2000) (q : Fin 128) :
    matmul dot_S2000x256_S256x128_S2000x128_1_0_0_1_n_n none L W (constant S2000x128 .f32 0x00000000#32) (ix2 p q)
      = ∑ k : Fin 256, L (ix2 p k) * W (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  rw [lhs_at p q k, rhs_at p q k]

/-- The bias vector, given a leading unit axis and broadcast down the block's rows, at (p, q): the bias of column q. -/
theorem bias_at (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ _ p q).trans (shapeCast_a_1a_apply b _ 0 q)

/-- THE STORED BLOCK at (p, q) is the layer's entry at row p of the two row blocks and column q. -/
theorem payload_at (x0 x1 : Vec Ideal S2000x256 .f32) (x2 x3 : Vec Ideal S256x128 .f32) (x4 : Vec Ideal S128 .f32) (p : Fin 2000) (q : Fin 128) :
    k1_pay1 (F := Ideal) x0 x1 x2 x3 x4 (ix2 p q)
      = Cert.GraphConv.entry x0 x1 x2 x3 x4 p q := by
  unfold k1_pay1 Cert.GraphConv.entry
  simp only [maximumf_apply, addf_apply, broadcast_apply, shapeCast_self]
  rw [product_at, product_at, bias_at]
  rfl

/-- The same against WHOLE arrays of 50000 rows: when rows p of the two row blocks are rows r of the arrays, and the
    weight and bias blocks are the arrays themselves, the stored block at (p, q) is the layer at (r, q). -/
theorem block_at (A X : S50000x256.Idx → EReal) (WR WT : S256x128.Idx → EReal) (B : S128.Idx → EReal)
    (x0 x1 : Vec Ideal S2000x256 .f32) (x2 x3 : Vec Ideal S256x128 .f32) (x4 : Vec Ideal S128 .f32)
    (p : Fin 2000) (q : Fin 128) (r : Fin 50000)
    (h0 : ∀ k : Fin 256, x0 (ix2 p k) = A (ix2 r k)) (h1 : ∀ k : Fin 256, x1 (ix2 p k) = X (ix2 r k))
    (h2 : x2 = WR) (h3 : x3 = WT) (h4 : x4 = B) :
    k1_pay1 (F := Ideal) x0 x1 x2 x3 x4 (ix2 p q)
      = Cert.GraphConv.layer A X WR WT B (ix2 r q) := by
  subst h2 h3 h4
  rw [payload_at]
  show Cert.GraphConv.entry x0 x1 x2 x3 x4 p q = Cert.GraphConv.entry A X x2 x3 x4 r q
  rw [Cert.GraphConv.entry_congr x0 x1 A X x2 x3 x4 p r q h0 h1]

end Cert.KernelIdeal.Body1

end
-- ==== Proof.Region1.lean ====
/-
  The second layer's kernel region as one function of the arrays it is entered with.

  The grid has 25 points; point t stages rows 2000·t … 2000·t + 1999 of the aggregated array and of the feature array,
  the two weight matrices and the bias whole, and writes back rows 2000·t … 2000·t + 1999 of the result. An entry of the layer
  reads one row of the two row arrays, so the block a point writes back is the block of ONE function of the whole
  arrays — the layer — and since the 25 blocks of 2000 rows tile the 50000 rows, the result array ends
  holding that function. Stated for any contents `V` the region may be entered with.
-/
import proofs.«180475_j489626271957_2_alg».proof.Proof.Gen.KernelIdeal.Frame
import proofs.«180475_j489626271957_2_alg».proof.Proof.Body1
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The layer's result as a function of the five arrays the region finds: aggregated rows, feature rows, relation
    weights, root weights, bias. -/
def result (c : Dev nD) : S50000x128.Idx → EReal :=
  Cert.GraphConv.layer (V c main_v30) (V c main_v17) (V c main_arg6) (V c main_arg8) (V c main_arg7)

/-- Where each window's block sits at point t: the two row windows and the result window at row block t, the weights
    and the bias at their one block. Decided over the 25 points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT t WRITES BACK is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256x128) zero2, View.ld_unit_zero (S := S128) zero1]
  obtain ⟨e00, e01, e10, e11, e20, e21, e30, e31, e40, e50, e51⟩ := block_index t
  have hN : t.val < 25 := by have h := t.isLt; have e : cfg1.N = 25 := N_1; omega
  funext y
  obtain ⟨p, q, rfl⟩ : ∃ (p : Fin 2000) (q : Fin 128), y = ix2 p q := ⟨y 0, y 1, eq_ix2 y⟩
  have hp : p.val < 2000 := p.isLt
  have hq : q.val < 128 := q.isLt
  have hr : t.val * 2000 + p.val < 50000 := by omega
  show k1_pay1 (iblk1 V c 0 t) (iblk1 V c 1 t) (iblk1 V c 2 t) (iblk1 V c 3 t) (iblk1 V c 4 t) (ix2 p q)
    = result V c (((cfg1.win 5).blk t).view.emb (ix2 p q))
  have hemb : ((cfg1.win 5).blk t).view.emb (ix2 p q) = ix2 (⟨t.val * 2000 + p.val, hr⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hemb]
  unfold result
  refine Body1.block_at (V c main_v30) (V c main_v17) (V c main_arg6) (V c main_arg8) (V c main_arg7)
    (iblk1 V c 0 t) (iblk1 V c 1 t) (iblk1 V c 2 t) (iblk1 V c 3 t) (iblk1 V c 4 t) p q ⟨t.val * 2000 + p.val, hr⟩ ?_ ?_ ?_ ?_ ?_
  · intro k
    have hk : k.val < 256 := k.isLt
    show V c main_v30 (((cfg1.win 0).blk t).view.emb (ix2 p k)) = V c main_v30 (ix2 (⟨t.val * 2000 + p.val, hr⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  · intro k
    have hk : k.val < 256 := k.isLt
    show V c main_v17 (((cfg1.win 1).blk t).view.emb (ix2 p k)) = V c main_v17 (ix2 (⟨t.val * 2000 + p.val, hr⟩ : Fin 50000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  · funext z
    show V c main_arg6 (((cfg1.win 2).blk t).view.emb z) = V c main_arg6 z
    refine congrArg _ (funext fun a => Fin.ext ?_)
    match a with
    | ⟨0, _⟩ => show win1_2.index t (0 : Fin 2) * 256 + 1 * (z 0).val = (z 0).val; omega
    | ⟨1, _⟩ => show win1_2.index t (1 : Fin 2) * 128 + 1 * (z 1).val = (z 1).val; omega
  · funext z
    show V c main_arg8 (((cfg1.win 3).blk t).view.emb z) = V c main_arg8 z
    refine congrArg _ (funext fun a => Fin.ext ?_)
    match a with
    | ⟨0, _⟩ => show win1_3.index t (0 : Fin 2) * 256 + 1 * (z 0).val = (z 0).val; omega
    | ⟨1, _⟩ => show win1_3.index t (1 : Fin 2) * 128 + 1 * (z 1).val = (z 1).val; omega
  · funext z
    show V c main_arg7 (((cfg1.win 4).blk t).view.emb z) = V c main_arg7 z
    refine congrArg _ (funext fun a => Fin.ext ?_)
    match a with
    | ⟨0, _⟩ => show win1_4.index t (0 : Fin 1) * 128 + 1 * (z 0).val = (z 0).val; omega

/-- An index of the result array is in point t's block iff each coordinate is in the block's range on its axis. -/
theorem mem_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v31).slice (win1_5.rect t)).set ↔ _
  rw [View.set_slice_whole, Rect.mem_set_unit]
  exact Iff.rfl

/-- Every index of the result array is in the block of the point that owns its row: row r belongs to point r / 2000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, -, e50, e51⟩ := block_index ⟨(i 0).val / 2000, ht⟩
  refine ⟨⟨(i 0).val / 2000, ht⟩, flush1_5 _, ?_⟩
  rw [mem_block]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e51]; omega

/-- THE RESULT ARRAY after the region is `result` of the arrays the region was entered with. -/
theorem final (c : Dev nD) : (dat1 V c).arrAt 5 cfg1.N = result V c :=
  (dat1 V c).arrAt_eq_of_cover 5 (result V c) (fun t _ => flushed_eq V c t) covered

end Cert.KernelIdeal.Region1

end
-- ==== Proof.RefLayers.lean ====
/-
  The reference's two layers as the layer function of their arrays.

  The reference computes a layer on whole arrays: the aggregated array times the relation weights, the features
  times the root weights, their sum, the bias row broadcast over the nodes added last; after the first layer the
  maximum with zero. Read at a node r and a channel q, each matrix product is the sum over the inner axis of row r
  against column q, and the broadcast bias is the bias of channel q: the layer function's entry, with no tiling to
  undo. The aggregated array (a gather along the edges' sources, the edge weights, a sum into the edges' targets) is
  left as the array it is.
-/
import proofs.«180475_j489626271957_2_alg».proof.Proof.Gen.ReferenceIdeal.Read
import proofs.«180475_j489626271957_2_alg».proof.Proof.LayerSpec

noncomputable section

open Idealize.ShloMosaic Idealize.ShloMosaic.ValueIdx

namespace Cert.ReferenceIdeal.Layers

open Cert.ReferenceIdeal Cert.ReferenceIdeal.Read

/-- THE HIDDEN ARRAY: the first layer of the aggregated input features, the input features, the first weights and
    bias, then the maximum with the zero word. -/
theorem hidden_eq (x0 : (⟨S50000x96, .f32⟩ : BufTy).Contents (Elt Ideal)) (x1 : (⟨S2x800000, .i32⟩ : BufTy).Contents (Elt Ideal))
    (x2 : (⟨S800000, .f32⟩ : BufTy).Contents (Elt Ideal)) (x3 : (⟨S96x256, .f32⟩ : BufTy).Contents (Elt Ideal))
    (x4 : (⟨S256, .f32⟩ : BufTy).Contents (Elt Ideal)) (x5 : (⟨S96x256, .f32⟩ : BufTy).Contents (Elt Ideal)) :
    val_main_v23 (F := Ideal) x0 x1 x2 x3 x4 x5
      = Cert.GraphConv.layerMax (Ideal.ofBits .f32 0x00000000#32) (val_main_v16 (F := Ideal) x0 x1 x2) x0 x3 x5 x4 := by
  funext i
  obtain ⟨r, q, rfl⟩ : ∃ (r : Fin 50000) (q : Fin 256), i = ix2 r q := ⟨i 0, i 1, eq_ix2 i⟩
  have el1 : ∀ k : Fin 96, lidx_main_v17 (ix2 r q) k = ix2 r k := fun k => funext fun a => Fin.ext (by match a with | ⟨0, _⟩ => rfl | ⟨1, _⟩ => rfl)
  have er1 : ∀ k : Fin 96, ridx_main_v17 (ix2 r q) k = ix2 k q := fun k => funext fun a => Fin.ext (by match a with | ⟨0, _⟩ => rfl | ⟨1, _⟩ => rfl)
  have el2 : ∀ k : Fin 96, lidx_main_v18 (ix2 r q) k = ix2 r k := fun k => funext fun a => Fin.ext (by match a with | ⟨0, _⟩ => rfl | ⟨1, _⟩ => rfl)
  have er2 : ∀ k : Fin 96, ridx_main_v18 (ix2 r q) k = ix2 k q := fun k => funext fun a => Fin.ext (by match a with | ⟨0, _⟩ => rfl | ⟨1, _⟩ => rfl)
  have eb : idx_main_v20 (idx_main_v21 (ix2 r q)) = ix1 q := funext fun a => Fin.ext (by match a with | ⟨0, _⟩ => rfl)
  rw [val_main_v23_apply, val_main_v22_apply, val_main_v19_apply, val_main_v17_apply, val_main_v18_apply, val_main_v21_apply,
    val_main_v20_apply, val_main_call0_v0_apply, val_main_call0_cst_apply]
  simp only [el1, er1, el2, er2, eb]
  rfl

/-- THE RESULT: the second layer of the aggregated hidden array, the hidden array, the second weights and bias. -/
theorem output_eq (x0 : (⟨S50000x96, .f32⟩ : BufTy).Contents (Elt Ideal)) (x1 : (⟨S2x800000, .i32⟩ : BufTy).Contents (Elt Ideal))
    (x2 : (⟨S800000, .f32⟩ : BufTy).Contents (Elt Ideal)) (x3 : (⟨S96x256, .f32⟩ : BufTy).Contents (Elt Ideal))
    (x4 : (⟨S256, .f32⟩ : BufTy).Contents (Elt Ideal)) (x5 : (⟨S96x256, .f32⟩ : BufTy).Contents (Elt Ideal))
    (x6 : (⟨S256x128, .f32⟩ : BufTy).Contents (Elt Ideal)) (x7 : (⟨S128, .f32⟩ : BufTy).Contents (Elt Ideal))
    (x8 : (⟨S256x128, .f32⟩ : BufTy).Contents (Elt Ideal)) :
    val_main_v42 (F := Ideal) x0 x1 x2 x3 x4 x5 x6 x7 x8
      = Cert.GraphConv.layer (val_main_v36 (F := Ideal) x0 x1 x2 x3 x4 x5) (val_main_v23 (F := Ideal) x0 x1 x2 x3 x4 x5) x6 x8 x7 := by
  funext i
  obtain ⟨r, q, rfl⟩ : ∃ (r : Fin 50000) (q : Fin 128), i = ix2 r q := ⟨i 0, i 1, eq_ix2 i⟩
  have el1 : ∀ k : Fin 256, lidx_main_v37 (ix2 r q) k = ix2 r k := fun k => funext fun a => Fin.ext (by match a with | ⟨0, _⟩ => rfl | ⟨1, _⟩ => rfl)
  have er1 : ∀ k : Fin 256, ridx_main_v37 (ix2 r q) k = ix2 k q := fun k => funext fun a => Fin.ext (by match a with | ⟨0, _⟩ => rfl | ⟨1, _⟩ => rfl)
  have el2 : ∀ k : Fin 256, lidx_main_v38 (ix2 r q) k = ix2 r k := fun k => funext fun a => Fin.ext (by match a with | ⟨0, _⟩ => rfl | ⟨1, _⟩ => rfl)
  have er2 : ∀ k : Fin 256, ridx_main_v38 (ix2 r q) k = ix2 k q := fun k => funext fun a => Fin.ext (by match a with | ⟨0, _⟩ => rfl | ⟨1, _⟩ => rfl)
  have eb : idx_main_v40 (idx_main_v41 (ix2 r q)) = ix1 q := funext fun a => Fin.ext (by match a with | ⟨0, _⟩ => rfl)
  rw [val_main_v42_apply, val_main_v39_apply, val_main_v37_apply, val_main_v38_apply, val_main_v41_apply, val_main_v40_apply]
  simp only [el1, er1, el2, er2, eb]
  rfl

end Cert.ReferenceIdeal.Layers

end
-- ==== Proof.Bridge.lean ====
/-
  The kernel's result array is the reference's result, as functions of the nine arguments.

  Both programs aggregate with the same host operations, so the reference's two aggregated arrays are the kernel's
  aggregation function applied to the same feature array, sources, targets and edge weights. The kernel's first region
  leaves the first layer (with its maximum against zero) of the aggregated input and the input; the reference's hidden
  array is the same layer of the same arrays. Hence the second aggregation is applied to equal arrays on the two sides,
  and the second region's output — the second layer of that aggregation and the hidden array — is the reference's result.
  No algebraic law is used beyond reading each matrix product as its sum: the two sides add the same terms in the same
  grouping, so nothing here needs the inputs to be finite.
-/
import proofs.«180475_j489626271957_2_alg».proof.Proof.Entry
import proofs.«180475_j489626271957_2_alg».proof.Proof.Region0
import proofs.«180475_j489626271957_2_alg».proof.Proof.Region1
import proofs.«180475_j489626271957_2_alg».proof.Proof.RefLayers

noncomputable section

namespace Cert.Bridge

open Idealize.ShloMosaic Idealize.ShloMosaic.TcCoe Idealize.SL.Sem

/-- The reference's first aggregated array is the aggregation of its input features. -/
theorem ref_agg1 (x0 : (⟨Cert.ReferenceIdeal.S50000x96, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) :
    Cert.ReferenceIdeal.Read.val_main_v16 (F := Ideal) x0 x1 x2
      = Cert.KernelIdeal.Entry.aggregate1 (F := Ideal) x0 (Cert.KernelIdeal.Entry.sources x1) (Cert.KernelIdeal.Entry.targets x1) x2 := rfl

/-- The reference's second aggregated array is the aggregation of its hidden array, over the same edges. -/
theorem ref_agg2 (x0 : (⟨Cert.ReferenceIdeal.S50000x96, .f32⟩ : BufTy).Contents (Elt Ideal)) (x1 : (⟨Cert.ReferenceIdeal.S2x800000, .i32⟩ : BufTy).Contents (Elt Ideal))
    (x2 : (⟨Cert.ReferenceIdeal.S800000, .f32⟩ : BufTy).Contents (Elt Ideal)) (x3 : (⟨Cert.ReferenceIdeal.S96x256, .f32⟩ : BufTy).Contents (Elt Ideal))
    (x4 : (⟨Cert.ReferenceIdeal.S256, .f32⟩ : BufTy).Contents (Elt Ideal)) (x5 : (⟨Cert.ReferenceIdeal.S96x256, .f32⟩ : BufTy).Contents (Elt Ideal)) :
    Cert.ReferenceIdeal.Read.val_main_v36 (F := Ideal) x0 x1 x2 x3 x4 x5
      = Cert.KernelIdeal.Entry.aggregate2 (F := Ideal) (Cert.ReferenceIdeal.Read.val_main_v23 (F := Ideal) x0 x1 x2 x3 x4 x5) (Cert.KernelIdeal.Entry.sources x1) (Cert.KernelIdeal.Entry.targets x1) x2 := rfl

variable (m : (ℓ : Loc Cert.KernelIdeal.nD Cert.KernelIdeal.τ Cert.KernelIdeal.sig) → Buf (Elt Ideal) ℓ) (ρ : Dev Cert.KernelIdeal.nD → PrngReg)

/-- The first region's output array is the reference's hidden array of the launch contents. -/
theorem hidden_eq (c : Dev Cert.KernelIdeal.nD) :
    (Cert.KernelIdeal.Gen.dat0 (Cert.KernelIdeal.Gen.V1 m ρ) c).arrAt 5 Cert.KernelIdeal.cfg0.N
      = Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Region0.final, Cert.ReferenceIdeal.Layers.hidden_eq, ref_agg1]
  unfold Cert.KernelIdeal.Region0.result
  rw [Cert.KernelIdeal.Entry.V1_agg, Cert.KernelIdeal.Entry.V1_main_arg0, Cert.KernelIdeal.Entry.V1_main_arg3, Cert.KernelIdeal.Entry.V1_main_arg5, Cert.KernelIdeal.Entry.V1_main_arg4]

/-- THE KERNEL'S RESULT ARRAY — the second region's output after its last point — is the reference's result of the
    launch contents. -/
theorem result_eq (c : Dev Cert.KernelIdeal.nD) :
    (Cert.KernelIdeal.Gen.dat1 (Cert.KernelIdeal.Gen.V3 m ρ) c).arrAt 5 Cert.KernelIdeal.cfg1.N
      = Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Region1.final, Cert.ReferenceIdeal.Layers.output_eq, ref_agg2]
  unfold Cert.KernelIdeal.Region1.result
  rw [Cert.KernelIdeal.Entry.V3_agg, Cert.KernelIdeal.Entry.V3_hidden, Cert.KernelIdeal.Entry.V3_main_arg6, Cert.KernelIdeal.Entry.V3_main_arg8, Cert.KernelIdeal.Entry.V3_main_arg7, hidden_eq]

end Cert.Bridge

end
-- ==== Proof.lean ====
/-
  A two-layer graph convolution: the tiled kernel program against the whole-array reference, over the extended reals.

  Each layer aggregates a feature array along the graph's edges (the source node's row, scaled by the edge weight,
  summed into the target node), multiplies the aggregated array by the relation weights and the feature array by the
  root weights, adds the two products and then the bias; the first layer is followed by the maximum with zero. The
  kernel program computes the aggregation on the host exactly as the reference does, and the linear part in a kernel
  over blocks of 5000 rows (first layer) and 2000 rows (second layer); its roundings to bf16 before the products are
  the identity on the extended reals.

  The proof: an entry of a layer reads one row of the aggregated and feature arrays and one column of each weight
  matrix, so a block of rows of the layer is the layer of the block of rows (LayerSpec, Body0, Body1); the blocks tile
  the 50000 rows, so each region's output array is the layer of the arrays it was entered with (Region0, Region1);
  those arrays are the aggregation and the launch contents (Entry); the reference's hidden array and result are the
  same layer function of the same arrays (RefLayers); so the two results are one function of the arguments (Bridge).
  The run of the kernel program with its result buffer named is RunValue. The ideal pass rewrote nothing, so the
  idealization claim is trivial.
-/
import proofs.«180475_j489626271957_2_alg».proof.Defs
import proofs.«180475_j489626271957_2_alg».proof.Proof.Gen.Kernel
import proofs.«180475_j489626271957_2_alg».proof.Proof.Gen.Kernel.Skeleton
import proofs.«180475_j489626271957_2_alg».proof.Proof.Gen.Kernel.Launch
import proofs.«180475_j489626271957_2_alg».proof.Proof.Gen.Kernel.Points
import proofs.«180475_j489626271957_2_alg».proof.Proof.Gen.Kernel.Frame
import proofs.«180475_j489626271957_2_alg».proof.Proof.Gen.KernelIdeal
import proofs.«180475_j489626271957_2_alg».proof.Proof.Gen.KernelIdeal.Skeleton
import proofs.«180475_j489626271957_2_alg».proof.Proof.Gen.KernelIdeal.Launch
import proofs.«180475_j489626271957_2_alg».proof.Proof.Gen.KernelIdeal.Points
import proofs.«180475_j489626271957_2_alg».proof.Proof.Gen.KernelIdeal.Frame
import proofs.«180475_j489626271957_2_alg».proof.Proof.Gen.ReferenceIdeal
import proofs.«180475_j489626271957_2_alg».proof.Proof.Gen.ReferenceIdeal.Run
import proofs.«180475_j489626271957_2_alg».proof.Proof.Gen.ReferenceIdeal.Read
import proofs.«180475_j489626271957_2_alg».proof.Proof.Gen.Pre_finite_inputs
import proofs.«180475_j489626271957_2_alg».proof.Proof.RunValue
import proofs.«180475_j489626271957_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- The idealized kernel program runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the reference's result function of the kernel program's arguments: the kernel program by
    its run and `Bridge.result_eq`, the reference by its run at arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.Bridge.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
